-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x128 : Shape := ⟨2, ![64, 128]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S8192x64 .f32) (main_arg1 : FVec F S64x128 .f32) (main_arg2 : FVec F S64x128 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S8192x64 : Shape := ⟨2, ![8192, 64]⟩
abbrev S64x128 : Shape := ⟨2, ![64, 128]⟩
abbrev S8192x64x128 : Shape := ⟨3, ![8192, 64, 128]⟩
abbrev S512x64 : Shape := ⟨2, ![512, 64]⟩
abbrev S512x64x128 : Shape := ⟨3, ![512, 64, 128]⟩
abbrev S64x64 : Shape := ⟨2, ![64, 64]⟩
abbrev S64x64x1 : Shape := ⟨3, ![64, 64, 1]⟩
abbrev S1x64x128 : Shape := ⟨3, ![1, 64, 128]⟩
abbrev S64x64x128 : Shape := ⟨3, ![64, 64, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S64x128, .f32⟩
  | .hbm, ⟨2, _⟩ => ⟨S64x128, .f32⟩
  | .hbm, ⟨3, _⟩ => ⟨S8192x64x128, .f32⟩
  | .local _ .vmem, ⟨0, _⟩ => ⟨S512x64, .f32⟩
  | .local _ .vmem, ⟨1, _⟩ => ⟨S512x64, .f32⟩
  | .local _ .vmem, ⟨2, _⟩ => ⟨S64x128, .f32⟩
  | .local _ .vmem, ⟨3, _⟩ => ⟨S64x128, .f32⟩
  | .local _ .vmem, ⟨4, _⟩ => ⟨S512x64x128, .f32⟩
  | .local _ .vmem, ⟨5, _⟩ => ⟨S512x64x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c64_i32 : BitVec 32 := 64#32
  let v2 : BitVec 32 := Scalar.muli c0_i32 c64_i32
  v2
def k0_off1 (c0_i32 : BitVec 32) : Fin 2 → Nat :=
  let c64_i32 : BitVec 32 := 64#32
  let v2 : BitVec 32 := Scalar.muli c0_i32 c64_i32
  let v3 : BitVec 32 := v2
  let v4 : Index := Scalar.indexCast v3
  let c0_3 : Index := 0#32
  ![v4.toNat, 0]
def k0_off2 (c0_i32 : BitVec 32) : Fin 3 → Nat :=
  let c64_i32 : BitVec 32 := 64#32
  let v2 : BitVec 32 := Scalar.muli c0_i32 c64_i32
  let v3 : BitVec 32 := v2
  let v14 : Index := Scalar.indexCast v3
  let c0_4 : Index := 0#32
  let c0_5 : Index := 0#32
  ![v14.toNat, 0, 0]
def k0_mult2 : BitVec 32 :=
  let c1_i32 : BitVec 32 := 1#32
  let c64_i32_6 : BitVec 32 := 64#32
  let v16 : BitVec 32 := Scalar.muli c1_i32 c64_i32_6
  v16
def k0_mult3 : BitVec 32 :=
  let c2_i32 : BitVec 32 := 2#32
  let c64_i32_10 : BitVec 32 := 64#32
  let v30 : BitVec 32 := Scalar.muli c2_i32 c64_i32_10
  v30
def k0_mult4 : BitVec 32 :=
  let c3_i32 : BitVec 32 := 3#32
  let c64_i32_14 : BitVec 32 := 64#32
  let v44 : BitVec 32 := Scalar.muli c3_i32 c64_i32_14
  v44
def k0_mult5 : BitVec 32 :=
  let c4_i32 : BitVec 32 := 4#32
  let c64_i32_18 : BitVec 32 := 64#32
  let v58 : BitVec 32 := Scalar.muli c4_i32 c64_i32_18
  v58
def k0_mult6 : BitVec 32 :=
  let c5_i32 : BitVec 32 := 5#32
  let c64_i32_22 : BitVec 32 := 64#32
  let v72 : BitVec 32 := Scalar.muli c5_i32 c64_i32_22
  v72
def k0_mult7 : BitVec 32 :=
  let c6_i32 : BitVec 32 := 6#32
  let c64_i32_26 : BitVec 32 := 64#32
  let v86 : BitVec 32 := Scalar.muli c6_i32 c64_i32_26
  v86
def k0_mult8 : BitVec 32 :=
  let c7_i32 : BitVec 32 := 7#32
  let c64_i32_30 : BitVec 32 := 64#32
  let v100 : BitVec 32 := Scalar.muli c7_i32 c64_i32_30
  v100
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x128_S64x128_0_0 : ∀ a, (![0, 0] : Fin 2 → Nat) a + S64x128.size a ≤ S64x128.size a
  h_S64x128 : 0 < S64x128.numel
  h_S64x64 : 0 < S64x64.numel
  shapeCasts_S64x64_S64x64x1 : S64x64.ShapeCasts S64x64x1
  shapeCasts_S64x128_S1x64x128 : S64x128.ShapeCasts S1x64x128
  broadcasts_S64x64x1_S64x64x128 : S64x64x1.Broadcasts S64x64x128
  broadcasts_S1x64x128_S64x64x128 : S1x64x128.Broadcasts S64x64x128
  h_S64x64x128 : 0 < S64x64x128.numel
  hrank0 : 0 < grid0.rank
  k0_mult1_dvd : 64 ∣ k0_mult1.toNat
  k0_off1_inb : ∀ (r : Fin 8), ∀ a, (k0_off1 (BitVec.ofNat 32 r.val)) a + S64x64.size a ≤ S512x64.size a
  k0_off2_inb : ∀ (r : Fin 8), ∀ a, (k0_off2 (BitVec.ofNat 32 r.val)) a + S64x64x128.size a ≤ S512x64x128.size a
  k0_mult2_dvd : 64 ∣ k0_mult2.toNat
  k0_mult3_dvd : 64 ∣ k0_mult3.toNat
  k0_mult4_dvd : 64 ∣ k0_mult4.toNat
  k0_mult5_dvd : 64 ∣ k0_mult5.toNat
  k0_mult6_dvd : 64 ∣ k0_mult6.toNat
  k0_mult7_dvd : 64 ∣ k0_mult7.toNat
  k0_mult8_dvd : 64 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64x128.size a ≤ S8192x64x128.size a
  hwx0_3 : ∀ i : grid0.Coords, EltTy.bits .f32 = 32 ∨ (Rect.block (s := S8192x64x128) S512x64x128.size (cc0_transform_3 i) (hinb0_3 i)).WholeWords (EltTy.packing .f32)

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x128 : Shape := ⟨2, ![64, 128]⟩
abbrev S8192x64x1 : Shape := ⟨3, ![8192, 64, 1]⟩
abbrev S1x64x128 : Shape := ⟨3, ![1, 64, 128]⟩
abbrev S8192x64x128 : Shape := ⟨3, ![8192, 64, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64x128, .f32⟩
  | .hbm, ⟨2, _⟩ => ⟨S64x128, .f32⟩
  | .hbm, ⟨3, _⟩ => ⟨S8192x64x1, .f32⟩
  | .hbm, ⟨4, _⟩ => ⟨S1x64x128, .f32⟩
  | .hbm, ⟨5, _⟩ => ⟨S8192x64x128, .f32⟩
  | .hbm, ⟨6, _⟩ => ⟨S8192x64x128, .f32⟩
  | .hbm, ⟨7, _⟩ => ⟨S8192x64x128, .f32⟩
  | .hbm, ⟨8, _⟩ => ⟨S1x64x128, .f32⟩
  | .hbm, ⟨9, _⟩ => ⟨S8192x64x128, .f32⟩
  | .hbm, ⟨10, _⟩ => ⟨S8192x64x128, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S8192x64_S8192x64x1_0_1 : S8192x64.BroadcastsInDim S8192x64x1 (![0, 1] : Fin 2 → Fin S8192x64x1.rank)
  bcast_S64x128_S1x64x128_1_2 : S64x128.BroadcastsInDim S1x64x128 (![1, 2] : Fin 2 → Fin S1x64x128.rank)
  bcast_S8192x64x1_S8192x64x128_0_1_2 : S8192x64x1.BroadcastsInDim S8192x64x128 (![0, 1, 2] : Fin 3 → Fin S8192x64x128.rank)
  bcast_S1x64x128_S8192x64x128_0_1_2 : S1x64x128.BroadcastsInDim S8192x64x128 (![0, 1, 2] : Fin 3 → Fin S8192x64x128.rank)

variable [Facts₀]

class Facts : Prop extends Facts₀ where

variable [Facts]
-- ==== Proof.LibRank3Layout.lean ====
/-
  Three re-layings of small arrays that a rank-3 broadcast meets, each read at an index given by its coordinates.

  A matrix `[a, b]` becomes a stack of columns `[a, b, 1]` without moving an entry, and that stack is spread over a
  last axis of any length `c` by repeating each entry `c` times; a single sheet `[1, b, c]` is spread over a first axis of
  any length `a` by repeating the sheet `a` times.  Row-major positions decide the first (the unit axis contributes the
  factor `1` and the offset `0`), and the rule "a unit axis of the operand reads `0`, every other axis reads the
  result's coordinate" decides the other two.
-/
import Idealize.ShloMosaic.Lib.Pipeline.Value
import Idealize.ShloMosaic.Lib.ValueIdx

noncomputable section

namespace Idealize.ShloMosaic.Rank3Layout

open Idealize.ShloMosaic Idealize.ShloMosaic.ValueIdx

variable {α : Type}

/-- An `[a, b]` array cast to `[a, b, 1]` reads, at `(i, j, u)`, the operand at `(i, j)`: the two row-major positions are
    `i·b + j` and `(i·b + j)·1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of column `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand's one sheet at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.Rank3Layout

end
-- ==== Proof.Chunk.lean ====
/-
  What one store of the kernel's body writes, read at an index.

  The body cuts its 512 batch rows into eight chunks of 64 rows.  For a chunk `xc : [64, 64]` of the input block and
  the whole `w, b : [64, 128]` it stores the `[64, 64, 128]` array
      xc[p, v] · w[v, n] + b[v, n]
  built as: `xc` as a stack of columns `[64, 64, 1]` spread over the neurons, `w` and `b` as one sheet `[1, 64, 128]`
  spread over the chunk's rows, a product and a sum entry by entry.  All eight stores carry this same array of their
  own chunk; two of them are printed in two halves (the product in one, the sum with the spread `b` in the next),
  which is the same array again.
-/
import proofs.«170698_j5557687681682_2_alg».proof.Proof.Gen.KernelIdeal.Skeleton
import proofs.«170698_j5557687681682_2_alg».proof.Proof.LibRank3Layout
import Idealize.ShloMosaic.Lib.ValueLayout

noncomputable section

namespace Cert.KernelIdeal.Chunk

open Cert.KernelIdeal Cert.KernelIdeal.Gen
open Idealize.ShloMosaic Idealize.ShloMosaic.ValueIdx Idealize.ShloMosaic.Rank3Layout

/-- The array one store writes for the chunk `xc`, entry `(p, v, n)`: `xc[p, v] · w[v, n] + b[v, n]`. -/
theorem stored_apply (w b : Vec Ideal S64x128 .f32) (xc : Vec Ideal S64x64 .f32) (p : Fin 64) (v : Fin 64) (n : Fin 128) :
    k0_pay4 (F := Ideal) w b xc (ix3 p v n) = xc (ix2 p v) * w (ix2 v n) + b (ix2 v n) := by
  unfold k0_pay4
  rw [addf_apply, mulf_apply]
  rw [broadcastTo_ab1_abc_apply, shapeCast_ab_ab1_apply, broadcastTo_1bc_abc_apply, shapeCast_ab_1ab_apply,
    broadcastTo_1bc_abc_apply, shapeCast_ab_1ab_apply]

/-- The other stores write the same array of their own chunk: their printed terms are the first one's, operation
    for operation. -/
theorem stored5 (w b : Vec Ideal S64x128 .f32) (xc : Vec Ideal S64x64 .f32) : k0_pay5 (F := Ideal) w b xc = k0_pay4 w b xc := rfl
theorem stored9 (w b : Vec Ideal S64x128 .f32) (xc : Vec Ideal S64x64 .f32) : k0_pay9 (F := Ideal) w b xc = k0_pay4 w b xc := rfl
theorem stored10 (w b : Vec Ideal S64x128 .f32) (xc : Vec Ideal S64x64 .f32) : k0_pay10 (F := Ideal) w b xc = k0_pay4 w b xc := rfl
theorem stored2 (w b : Vec Ideal S64x128 .f32) (xc : Vec Ideal S64x64 .f32) : k0_pay2 (F := Ideal) w b xc = k0_pay4 w b xc := rfl
theorem stored3 (w b : Vec Ideal S64x128 .f32) (xc : Vec Ideal S64x64 .f32) : k0_pay3 (F := Ideal) w b xc = k0_pay4 w b xc := rfl

/-- The third store, printed in two halves: the product first, then the sum with the spread `b`. -/
theorem stored8 (w b : Vec Ideal S64x128 .f32) (xc : Vec Ideal S64x64 .f32) :
    k0_pay8 (F := Ideal) (k0_pay6 w xc) (k0_pay7 b) = k0_pay4 w b xc := rfl

/-- The sixth store, printed in two halves in the same way. -/
theorem stored1 (w b : Vec Ideal S64x128 .f32) (xc : Vec Ideal S64x64 .f32) :
    k0_pay1 (F := Ideal) (k0_pay11 w xc) (k0_pay12 b) = k0_pay4 w b xc := rfl

end Cert.KernelIdeal.Chunk

end
-- ==== Proof.Block.lean ====
/-
  What the kernel's body leaves in the output block at one grid point.

  At a grid point the body sees a block `x0 : [512, 64]` of the input and the whole `x1 = w`, `x2 = b : [64, 128]`, and
  fills the output block `[512, 64, 128]` by eight stores, the `k`-th through rows `64·k … 64·k + 63`.  The `k`-th store
  writes the array of the chunk `x0[64·k + p, v]`, so row `64·k + p` of the block receives `x0[64·k + p, v] · w[v, n] +
  b[v, n]`: every store is a slab of ONE function of the block's index,
      block[q, v, n] = x0[q, v] · x1[v, n] + x2[v, n],
  and eight slabs that tile the block leave that function.
-/
import proofs.«170698_j5557687681682_2_alg».proof.Proof.Gen.KernelIdeal.Frame
import proofs.«170698_j5557687681682_2_alg».proof.Proof.Chunk
import Idealize.ShloMosaic.Lib.Pipeline.Value
import Idealize.ShloMosaic.Lib.Tactic

noncomputable section

namespace Cert.KernelIdeal.Block

open Cert.KernelIdeal Cert.KernelIdeal.Gen Cert.KernelIdeal.Chunk
open Idealize.ShloMosaic Idealize.ShloMosaic.TcCoe Idealize.SL.Sem
open Idealize.ShloMosaic.ValueIdx Idealize.ShloMosaic.Tactic

/-- The zero offsets of a whole `[64, 128]` load. -/
theorem zero_offsets : (![0, 0] : Fin 2 → Nat) = fun _ => 0 := funext fun a => by fin_cases a <;> rfl

/-- The output block as one function of the point's input blocks: `block[q, v, n] = x0[q, v] · x1[v, n] + x2[v, n]`. -/
def blockOf (x0 : Vec Ideal S512x64 .f32) (x1 x2 : Vec Ideal S64x128 .f32) : Vec Ideal S512x64x128 .f32 :=
  fun y => x0 (ix2 (y 0) (y 1)) * x1 (ix2 (y 1) (y 2)) + x2 (ix2 (y 1) (y 2))

/-- The block function at an index given by coordinates. -/
theorem blockOf_apply (x0 : Vec Ideal S512x64 .f32) (x1 x2 : Vec Ideal S64x128 .f32) (q : Fin 512) (v : Fin 64) (n : Fin 128) :
    blockOf x0 x1 x2 (ix3 q v n) = x0 (ix2 q v) * x1 (ix2 v n) + x2 (ix2 v n) := rfl

/-- ONE STORE IS A SLAB OF THE BLOCK FUNCTION.  The store through rows `o … o + 63` writes the array of the chunk of
    `x0` at rows `o … o + 63`; its entry `(p, v, n)` lands at `(o + p, v, n)` of the block, and there the block function
    reads `x0` at row `o + p` too. -/
theorem slab_eq (x0 : Vec Ideal S512x64 .f32) (x1 x2 : Vec Ideal S64x128 .f32) (o : ℕ)
    (inb3 : ∀ a, (![o, 0, 0] : Fin 3 → ℕ) a + (![64, 64, 128] : Fin 3 → ℕ) a ≤ S512x64x128.size a)
    (inb2 : ∀ a, (![o, 0] : Fin 2 → ℕ) a + (![64, 64] : Fin 2 → ℕ) a ≤ S512x64.size a)
    (x : (Rect.unit (s := S512x64x128) ![o, 0, 0] ![64, 64, 128] inb3).shape.Idx) :
    k0_pay4 (F := Ideal) x1 x2 (View.ld x0 (Rect.unit (s := S512x64) ![o, 0] ![64, 64] inb2)) x
      = blockOf x0 x1 x2 ((Rect.unit (s := S512x64x128) ![o, 0, 0] ![64, 64, 128] inb3).emb x) := by
  obtain ⟨p, v, n, rfl⟩ : ∃ (p : Fin 64) (v : Fin 64) (n : Fin 128), x = ix3 p v n := ⟨x 0, x 1, x 2, eq_ix3 x⟩
  refine (stored_apply x1 x2 _ p v n).trans ?_
  have ho : o + 64 ≤ 512 := inb3 0
  have hp : o + p.val < 512 := by have := p.isLt; omega
  have hx : View.ld x0 (Rect.unit (s := S512x64) ![o, 0] ![64, 64] inb2) (ix2 p v) = x0 (ix2 (⟨o + p.val, hp⟩ : Fin 512) v) :=
    congrArg x0 (funext fun a => Fin.ext (by
      match a with
      | ⟨0, _⟩ => show o + 1 * p.val = o + p.val; omega
      | ⟨1, _⟩ => show 0 + 1 * v.val = v.val; omega))
  have he : (Rect.unit (s := S512x64x128) ![o, 0, 0] ![64, 64, 128] inb3).emb (ix3 p v n) = ix3 (⟨o + p.val, hp⟩ : Fin 512) v n :=
    funext fun a => Fin.ext (by
      match a with
      | ⟨0, _⟩ => show o + 1 * p.val = o + p.val; omega
      | ⟨1, _⟩ => show 0 + 1 * v.val = v.val; omega
      | ⟨2, _⟩ => show 0 + 1 * n.val = n.val; omega)
  rw [hx, he, blockOf_apply]

/-- THE BLOCK AFTER THE BODY: the eight slabs tile the block, each a slab of `blockOf`, so the staging buffer reads
    `blockOf` of the point's input blocks. -/
theorem block_eq (c : Dev nD) (i : grid0.Coords) (arg1 : Memref sig .tc .vmem S512x64 .f32) (harg1 : arg1.IsWhole)
    (arg2 : Memref sig .tc .vmem S64x128 .f32) (harg2 : arg2.IsWhole) (arg3 : Memref sig .tc .vmem S64x128 .f32) (harg3 : arg3.IsWhole)
    (arg4 : Memref sig .tc .vmem S512x64x128 .f32) (harg4 : arg4.IsWhole)
    (x0 : Vec Ideal S512x64 .f32) (x1 : Vec Ideal S64x128 .f32) (x2 : Vec Ideal S64x128 .f32) :
    out0_A_3 (F := Ideal) c i arg1 harg1 arg2 harg2 arg3 harg3 arg4 harg4 x0 x1 x2 = blockOf x0 x1 x2 := by
  unfold out0_A_3
  rw [View.read_writes_eq_canon _ _ _ (cover0_A_3 c i arg1 harg1 arg2 harg2 arg3 harg3 arg4 harg4 x0 x1 x2)]
  funext y
  refine View.canon_apply_of_pieces (blockOf x0 x1 x2) _ ?_ y (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread, View.ld_unit_zero (S := S64x128) zero_offsets]
  intro p hp x
  simp only [List.mem_cons, List.not_mem_nil, or_false] at hp
  rcases hp with rfl | rfl | rfl | rfl | rfl | rfl | rfl | rfl
  · refine (congrFun (stored3 x1 x2 _) x).trans ?_
    exact slab_eq x0 x1 x2 448 (by decide) (by decide) x
  · refine (congrFun (stored2 x1 x2 _) x).trans ?_
    exact slab_eq x0 x1 x2 384 (by decide) (by decide) x
  · refine (congrFun (stored1 x1 x2 _) x).trans ?_
    exact slab_eq x0 x1 x2 320 (by decide) (by decide) x
  · refine (congrFun (stored10 x1 x2 _) x).trans ?_
    exact slab_eq x0 x1 x2 256 (by decide) (by decide) x
  · refine (congrFun (stored9 x1 x2 _) x).trans ?_
    exact slab_eq x0 x1 x2 192 (by decide) (by decide) x
  · refine (congrFun (stored8 x1 x2 _) x).trans ?_
    exact slab_eq x0 x1 x2 128 (by decide) (by decide) x
  · refine (congrFun (stored5 x1 x2 _) x).trans ?_
    exact slab_eq x0 x1 x2 64 (by decide) (by decide) x
  · exact slab_eq x0 x1 x2 0 (by decide) (by decide) x

end Cert.KernelIdeal.Block

end
-- ==== Proof.Spec.lean ====
/-
  The result both programs compute, as one function of the three argument arrays.

  For a batch row `r` (of 8192), an input coordinate `v` (of 64) and a neuron `n` (of 128) the result is
      out[r, v, n] = x[r, v] · w[v, n] + b[v, n]
  on the extended reals: every input coordinate has its own affine map from one number to 128 numbers, and the
  maps are stacked.  The product and the sum are each taken once per entry, in the same order on both sides, so
  no law of the extended reals is needed to join the two programs — only that both read the same three entries.
-/
import Idealize.ShloMosaic.PureOps.Ideal
import Idealize.ShloMosaic.Lib.ValueIdx

noncomputable section

namespace Cert.Stacked

open Idealize.ShloMosaic Idealize.ShloMosaic.ValueIdx

/-- The stacked affine maps: entry `(r, v, n)` is `x[r, v] · w[v, n] + b[v, n]`. -/
def affine (x : FVec Ideal ⟨2, ![8192, 64]⟩ .f32) (w b : FVec Ideal ⟨2, ![64, 128]⟩ .f32) :
    FVec Ideal ⟨3, ![8192, 64, 128]⟩ .f32 :=
  fun i => x (ix2 (i 0) (i 1)) * w (ix2 (i 1) (i 2)) + b (ix2 (i 1) (i 2))

/-- The function read at an index given by its coordinates. -/
theorem affine_apply (x : FVec Ideal ⟨2, ![8192, 64]⟩ .f32) (w b : FVec Ideal ⟨2, ![64, 128]⟩ .f32)
    (r : Fin 8192) (v : Fin 64) (n : Fin 128) :
    affine x w b (ix3 r v n) = x (ix2 r v) * w (ix2 v n) + b (ix2 v n) := rfl

end Cert.Stacked

end
-- ==== Proof.Whole.lean ====
/-
  From the blocks to the whole result array.

  The grid has 16 points; point `t` reads rows `512·t … 512·t + 511` of `x` and the whole of `w` and `b`, and writes
  back rows `512·t … 512·t + 511` of the result.  What it writes is the block function of its input blocks
  (`Block.block_eq`), and entry `(q, v, n)` of that is `x[512·t + q, v] · w[v, n] + b[v, n]`: rows `512·t + q` of the
  stacked affine maps.  So every point writes back its own rows of ONE function of the arguments; the row `r` of the
  result lies in the block of point `r / 512`, the 16 blocks cover the array, and the array ends as that function.
-/
import proofs.«170698_j5557687681682_2_alg».proof.Proof.Gen.KernelIdeal.Value
import proofs.«170698_j5557687681682_2_alg».proof.Proof.Block
import proofs.«170698_j5557687681682_2_alg».proof.Proof.Spec

noncomputable section

namespace Cert.KernelIdeal.Whole

open Cert.KernelIdeal Cert.KernelIdeal.Gen Cert.KernelIdeal.Block
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided over the 16 grid points: the input's and the result's block index is the point
    itself on the batch axis and `0` elsewhere; `w` and `b` are read whole at every point. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- There are 16 points. -/
theorem point_lt (t : Fin cfg0.N) : t.val < 16 := Nat.lt_of_lt_of_eq t.isLt N_0

/-- Row `q` of point `t`'s block is row `512·t + q` of the array. -/
def row (t : Fin cfg0.N) (q : Fin 512) : Fin 8192 := ⟨t.val * 512 + q.val, by have := point_lt t; have := q.isLt; omega⟩

/-- The input's block at point `t` reads `x` at rows `512·t + q`. -/
theorem read_x (c : Dev nD) (t : Fin cfg0.N) (q : Fin 512) (v : Fin 64) :
    iblk m c 0 t (ix2 q v) = m ((c : Thread nD τ).loc main_arg0) (ix2 (row t q) v) := by
  obtain ⟨e0, e1, -⟩ := index_maps t
  show V m c main_arg0 (((cfg0.win 0).blk t).view.emb (ix2 q v)) = _
  refine congrArg (V m c main_arg0) (funext fun a => Fin.ext ?_)
  match a with
  | ⟨0, _⟩ => show win0_0.index t (0 : Fin 2) * 512 + 1 * q.val = t.val * 512 + q.val; rw [e0]; omega
  | ⟨1, _⟩ => show win0_0.index t (1 : Fin 2) * 64 + 1 * v.val = v.val; rw [e1]; omega

/-- The block of `w` at any point is `w`. -/
theorem read_w (c : Dev nD) (t : Fin cfg0.N) (v : Fin 64) (n : Fin 128) :
    iblk m c 1 t (ix2 v n) = m ((c : Thread nD τ).loc main_arg1) (ix2 v n) := by
  obtain ⟨-, -, e2, e3, -⟩ := index_maps t
  show V m c main_arg1 (((cfg0.win 1).blk t).view.emb (ix2 v n)) = _
  refine congrArg (V m c main_arg1) (funext fun a => Fin.ext ?_)
  match a with
  | ⟨0, _⟩ => show win0_1.index t (0 : Fin 2) * 64 + 1 * v.val = v.val; rw [e2]; omega
  | ⟨1, _⟩ => show win0_1.index t (1 : Fin 2) * 128 + 1 * n.val = n.val; rw [e3]; omega

/-- The block of `b` at any point is `b`. -/
theorem read_b (c : Dev nD) (t : Fin cfg0.N) (v : Fin 64) (n : Fin 128) :
    iblk m c 2 t (ix2 v n) = m ((c : Thread nD τ).loc main_arg2) (ix2 v n) := by
  obtain ⟨-, -, -, -, e4, e5, -⟩ := index_maps t
  show V m c main_arg2 (((cfg0.win 2).blk t).view.emb (ix2 v n)) = _
  refine congrArg (V m c main_arg2) (funext fun a => Fin.ext ?_)
  match a with
  | ⟨0, _⟩ => show win0_2.index t (0 : Fin 2) * 64 + 1 * v.val = v.val; rw [e4]; omega
  | ⟨1, _⟩ => show win0_2.index t (1 : Fin 2) * 128 + 1 * n.val = n.val; rw [e5]; omega

/-- Entry `(q, v, n)` of the result's block at point `t` is entry `(512·t + q, v, n)` of the array. -/
theorem out_index (t : Fin cfg0.N) (q : Fin 512) (v : Fin 64) (n : Fin 128) :
    ((cfg0.win 3).blk t).view.emb (ix3 q v n) = ix3 (row t q) v n := by
  obtain ⟨-, -, -, -, -, -, e6, e7, e8⟩ := index_maps t
  refine funext fun a => Fin.ext ?_
  match a with
  | ⟨0, _⟩ => show win0_3.index t (0 : Fin 3) * 512 + 1 * q.val = t.val * 512 + q.val; rw [e6]; omega
  | ⟨1, _⟩ => show win0_3.index t (1 : Fin 3) * 64 + 1 * v.val = v.val; rw [e7]; omega
  | ⟨2, _⟩ => show win0_3.index t (2 : Fin 3) * 128 + 1 * n.val = n.val; rw [e8]; omega

/-- The result the array ends with: the stacked affine maps of the three arguments. -/
abbrev result (c : Dev nD) : Buf (Elt Ideal) ((c : Thread nD τ).loc main_v0) :=
  Cert.Stacked.affine (m ((c : Thread nD τ).loc main_arg0)) (m ((c : Thread nD τ).loc main_arg1)) (m ((c : Thread nD τ).loc main_arg2))

/-- WHAT POINT `t` WRITES BACK is its own rows of the stacked affine maps. -/
theorem flushed_eq (c : Dev nD) (t : Fin cfg0.N) :
    (dats m 0 c).flushed 3 t = ((cfg0.win 3).blk t).view.read (Elt Ideal) (result m c) := by
  rw [Value.flushed3_A, block_eq]
  funext j
  obtain ⟨q, v, n, rfl⟩ : ∃ (q : Fin 512) (v : Fin 64) (n : Fin 128), j = ix3 q v n := ⟨j 0, j 1, j 2, eq_ix3 j⟩
  show blockOf (iblk m c 0 t) (iblk m c 1 t) (iblk m c 2 t) (ix3 q v n) = result m c (((cfg0.win 3).blk t).view.emb (ix3 q v n))
  rw [out_index, blockOf_apply, read_x, read_w, read_b]
  rfl

/-- An index of the array is in point `t`'s block iff each coordinate is in the block's range on its axis. -/
theorem mem_block (t : Fin cfg0.N) (i : S8192x64x128.Idx) :
    i ∈ ((cfg0.win 3).blk t).view.set ↔ ∀ a : Fin 3, win0_3.index t a * S512x64x128.size a ≤ (i a).val
      ∧ (i a).val < win0_3.index t a * S512x64x128.size a + S512x64x128.size a := by
  show i ∈ ((View.whole main_v0).slice (win0_3.rect t)).set ↔ _
  rw [View.set_slice_whole, Rect.mem_set_unit]
  exact Iff.rfl

/-- Row `r` of the array lies in the block of point `r / 512`: the 16 blocks cover the array. -/
theorem cover (i : S8192x64x128.Idx) :
    ∃ t : Fin cfg0.N, (cfg0.win 3).flush t = true ∧ i ∈ ((cfg0.win 3).blk t).view.set := by
  have h0 : (i 0).val < 8192 := (i 0).isLt
  have h1 : (i 1).val < 64 := (i 1).isLt
  have h2 : (i 2).val < 128 := (i 2).isLt
  have hq : (i 0).val / 512 < cfg0.N := Nat.lt_of_lt_of_eq (by omega : (i 0).val / 512 < 16) N_0.symm
  obtain ⟨-, -, -, -, -, -, e6, e7, e8⟩ := index_maps ⟨(i 0).val / 512, hq⟩
  have e6' : win0_3.index ⟨(i 0).val / 512, hq⟩ (0 : Fin 3) = (i 0).val / 512 := e6
  refine ⟨⟨(i 0).val / 512, hq⟩, flush0_3 _, ?_⟩
  rw [mem_block]
  intro a
  match a with
  | ⟨0, _⟩ =>
    show win0_3.index ⟨(i 0).val / 512, hq⟩ (0 : Fin 3) * 512 ≤ (i 0).val
      ∧ (i 0).val < win0_3.index ⟨(i 0).val / 512, hq⟩ (0 : Fin 3) * 512 + 512
    rw [e6']; omega
  | ⟨1, _⟩ =>
    show win0_3.index ⟨(i 0).val / 512, hq⟩ (1 : Fin 3) * 64 ≤ (i 1).val
      ∧ (i 1).val < win0_3.index ⟨(i 0).val / 512, hq⟩ (1 : Fin 3) * 64 + 64
    rw [e7]; omega
  | ⟨2, _⟩ =>
    show win0_3.index ⟨(i 0).val / 512, hq⟩ (2 : Fin 3) * 128 ≤ (i 2).val
      ∧ (i 2).val < win0_3.index ⟨(i 0).val / 512, hq⟩ (2 : Fin 3) * 128 + 128
    rw [e8]; omega

/-- THE ARRAY after the run is the stacked affine maps of the arguments. -/
theorem final (c : Dev nD) : (dats m 0 c).arrAt 3 cfg0.N = result m c :=
  (dats m 0 c).arrAt_eq_of_cover 3 (result m c) (fun t _ => flushed_eq m c t) cover

/-- The kernel's run, read: the result array at the stacked affine maps, the three arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefAffine.lean ====
/-
  The reference program's result is the stacked affine maps.

  The reference spreads `x` over a new last axis (`[8192, 64] → [8192, 64, 1] → [8192, 64, 128]`), spreads `w` and `b`
  over a new first axis (`[64, 128] → [1, 64, 128] → [8192, 64, 128]`), multiplies and adds entry by entry.  Read at
  `(r, v, n)`, the spread `x` is `x[r, v]` and the spread `w`, `b` are `w[v, n]`, `b[v, n]`: the two broadcasts of each
  operand compose to dropping the coordinate the operand does not have.
-/
import proofs.«170698_j5557687681682_2_alg».proof.Proof.Gen.ReferenceIdeal.Read
import proofs.«170698_j5557687681682_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The two broadcasts of `x` read `(r, v, n)` at `(r, v)`. -/
theorem idx_x (i : S8192x64x128.Idx) : idx_main_v0 (idx_main_v2 i) = ix2 (i 0) (i 1) :=
  funext fun a => Fin.ext (by match a with | ⟨0, _⟩ => rfl | ⟨1, _⟩ => rfl)

/-- The two broadcasts of `w` read `(r, v, n)` at `(v, n)`. -/
theorem idx_w (i : S8192x64x128.Idx) : idx_main_v1 (idx_main_v3 i) = ix2 (i 1) (i 2) :=
  funext fun a => Fin.ext (by match a with | ⟨0, _⟩ => rfl | ⟨1, _⟩ => rfl)

/-- The two broadcasts of `b` read `(r, v, n)` at `(v, n)`. -/
theorem idx_b (i : S8192x64x128.Idx) : idx_main_v5 (idx_main_v6 i) = ix2 (i 1) (i 2) :=
  funext fun a => Fin.ext (by match a with | ⟨0, _⟩ => rfl | ⟨1, _⟩ => rfl)

/-- The reference's last stage, at the exact instance, is `x[r, v] · w[v, n] + b[v, n]` entry by entry. -/
theorem reference_eq (x : FVec Ideal S8192x64 .f32) (w b : FVec Ideal S64x128 .f32) :
    val_main_v7 (F := Ideal) x w b = Cert.Stacked.affine x w b := by
  funext i
  rw [val_main_v7_apply, val_main_v4_apply, val_main_v2_apply, val_main_v0_apply, val_main_v3_apply, val_main_v1_apply,
    val_main_v6_apply, val_main_v5_apply, idx_x, idx_w, idx_b]
  rfl

end Cert.ReferenceIdeal.RefValue

end
-- ==== Proof.lean ====
/-
  Stacked affine maps: `out[r, v, n] = x[r, v] · w[v, n] + b[v, n]` over `x : [8192, 64]`, `w, b : [64, 128]`.

  The kernel walks the batch in 16 blocks of 512 rows, and inside a block in eight chunks of 64 rows; for a chunk it
  spreads the chunk of `x` over the neurons and `w`, `b` over the chunk's rows, multiplies and adds, and stores the
  `[64, 64, 128]` slab.  The reference spreads the whole `x` over the neurons and `w`, `b` over all 8192 rows,
  multiplies and adds.  Entry by entry both take the one product `x[r, v] · w[v, n]` and add `b[v, n]` to it, so on the
  extended reals the two results are the same function (`Cert.Stacked.affine`, Proof/Spec.lean) of the same three
  arrays: no law of arithmetic is used and the inputs' finiteness is never opened.

    Spec            the function
    LibRank3Layout  a column stack and the two spreads of a rank-3 array, read at an index
    Chunk           one store's array at an index
    Block           the eight slabs tile the block: the block is one function of the point's input blocks
    Whole           every point writes back its own rows of the function; the 16 blocks cover the array
    RefAffine       the reference's composed broadcasts read the same three entries

  The idealization rewrote nothing, so the kernel is its own idealization and the fourth conjunct is `True`.
-/
import proofs.«170698_j5557687681682_2_alg».proof.Defs
import proofs.«170698_j5557687681682_2_alg».proof.Proof.Gen.Kernel
import proofs.«170698_j5557687681682_2_alg».proof.Proof.Gen.Kernel.Frame
import proofs.«170698_j5557687681682_2_alg».proof.Proof.Gen.KernelIdeal
import proofs.«170698_j5557687681682_2_alg».proof.Proof.Gen.KernelIdeal.Frame
import proofs.«170698_j5557687681682_2_alg».proof.Proof.Gen.KernelIdeal.Value
import proofs.«170698_j5557687681682_2_alg».proof.Proof.Gen.ReferenceIdeal
import proofs.«170698_j5557687681682_2_alg».proof.Proof.Gen.ReferenceIdeal.Run
import proofs.«170698_j5557687681682_2_alg».proof.Proof.Gen.ReferenceIdeal.Read
import proofs.«170698_j5557687681682_2_alg».proof.Proof.Gen.Pre_finite_inputs
import proofs.«170698_j5557687681682_2_alg».proof.Proof.Whole
import proofs.«170698_j5557687681682_2_alg».proof.Proof.RefAffine
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is eight host operations in a row; its run ends with the arguments unchanged. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the stacked affine maps of their arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
